-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x128 : Shape := ⟨3, ![8, 1024, 128]⟩
abbrev S8x256x128 : Shape := ⟨3, ![8, 256, 128]⟩
abbrev S64x128 : Shape := ⟨2, ![64, 128]⟩
abbrev S64 : Shape := ⟨1, ![64]⟩
abbrev S_ : Shape := ⟨0, ![]⟩

class Facts : Prop where
  bcast_S_S8x1024x128 : S_.BroadcastsInDim S8x1024x128 (![] : Fin 0 → Fin S8x1024x128.rank)
  reducesTo_S8x1024x128_S_d0_1_2 : S8x1024x128.ReducesTo [0, 1, 2] S_
  h_S_ : 0 < S_.numel
  bcast_S_S8x256x128 : S_.BroadcastsInDim S8x256x128 (![] : Fin 0 → Fin S8x256x128.rank)
  reducesTo_S8x256x128_S_d0_1_2 : S8x256x128.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S8x1024x128 .f32) (main_arg1 : FVec F S8x256x128 .f32) (main_arg2 : FVec F S64x128 .f32) (main_arg3 : FVec F S64 .f32) (main_arg4 : IVec S64 32) : IVec S_ 1 :=
  let main_v0 : FVec F S8x1024x128 .f32 := Host.absf main_arg0
  let main_cst : FVec F S_ .f32 := constant S_ .f32 0x7F800000#32
  let main_v1 : FVec F S8x1024x128 .f32 := broadcastInDim S8x1024x128 ![] bcast_S_S8x1024x128 main_cst
  let main_v2 : IVec S8x1024x128 1 := cmpf .olt main_v0 main_v1
  let main_c : IVec S_ 1 := constantI S_ 1 1#1
  let main_v3 : IVec S_ 1 := (fun x v => Host.reduce IntOp.andi x v reducesTo_S8x1024x128_S_d0_1_2 h_S_) main_v2 main_c
  let main_v4 : FVec F S8x256x128 .f32 := Host.absf main_arg1
  let main_cst_0 : FVec F S_ .f32 := constant S_ .f32 0x7F800000#32
  let main_v5 : FVec F S8x256x128 .f32 := broadcastInDim S8x256x128 ![] bcast_S_S8x256x128 main_cst_0
  let main_v6 : IVec S8x256x128 1 := cmpf .olt main_v4 main_v5
  let main_c_1 : IVec S_ 1 := constantI S_ 1 1#1
  let main_v7 : IVec S_ 1 := (fun x v => Host.reduce IntOp.andi x v reducesTo_S8x256x128_S_d0_1_2 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S8x1024x128 : Shape := ⟨3, ![8, 1024, 128]⟩
abbrev S8x256x128 : Shape := ⟨3, ![8, 256, 128]⟩
abbrev S64x128 : Shape := ⟨2, ![64, 128]⟩
abbrev S64 : Shape := ⟨1, ![64]⟩
abbrev S_ : Shape := ⟨0, ![]⟩
abbrev S64x1 : Shape := ⟨2, ![64, 1]⟩
abbrev S8x64x128 : Shape := ⟨3, ![8, 64, 128]⟩
abbrev S1x64 : Shape := ⟨2, ![1, 64]⟩
abbrev S8x1024x8192 : Shape := ⟨3, ![8, 1024, 8192]⟩
abbrev S1x128x128 : Shape := ⟨3, ![1, 128, 128]⟩
abbrev S1x64x128 : Shape := ⟨3, ![1, 64, 128]⟩
abbrev S1x128x8192 : Shape := ⟨3, ![1, 128, 8192]⟩
abbrev S128x128 : Shape := ⟨2, ![128, 128]⟩
abbrev S128 : Shape := ⟨1, ![128]⟩
abbrev S128x1 : Shape := ⟨2, ![128, 1]⟩
abbrev S128x64 : Shape := ⟨2, ![128, 64]⟩
abbrev S128x1x128 : Shape := ⟨3, ![128, 1, 128]⟩
abbrev S128x64x128 : Shape := ⟨3, ![128, 64, 128]⟩
abbrev S128x64x1 : Shape := ⟨3, ![128, 64, 1]⟩
abbrev S128x8192 : Shape := ⟨2, ![128, 8192]⟩

abbrev nBuf : Space → Nat
  | .hbm => 16
  | .vmem => 8
  | .smem => 0
  | _ => 0

abbrev bufTy : (tb : Table) → Fin (tcTables nBuf tb) → BufTy
  | .hbm, ⟨0, _⟩ => ⟨S8x1024x128, .f32⟩
  | .hbm, ⟨1, _⟩ => ⟨S8x256x128, .f32⟩
  | .hbm, ⟨2, _⟩ => ⟨S64x128, .f32⟩
  | .hbm, ⟨3, _⟩ => ⟨S64, .f32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S64x1, .i32⟩
  | .hbm, ⟨13, _⟩ => ⟨S8x64x128, .f32⟩
  | .hbm, ⟨14, _⟩ => ⟨S1x64, .f32⟩
  | .hbm, ⟨15, _⟩ => ⟨S8x1024x8192, .f32⟩
  | .local _ .vmem, ⟨0, _⟩ => ⟨S1x128x128, .f32⟩
  | .local _ .vmem, ⟨1, _⟩ => ⟨S1x128x128, .f32⟩
  | .local _ .vmem, ⟨2, _⟩ => ⟨S64x128, .f32⟩
  | .local _ .vmem, ⟨3, _⟩ => ⟨S1x64, .f32⟩
  | .local _ .vmem, ⟨4, _⟩ => ⟨S1x64x128, .f32⟩
  | .local _ .vmem, ⟨5, _⟩ => ⟨S1x64x128, .f32⟩
  | .local _ .vmem, ⟨6, _⟩ => ⟨S1x128x8192, .f32⟩
  | .local _ .vmem, ⟨7, _⟩ => ⟨S1x128x8192, .f32⟩
  | _, _ => ⟨S8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S64 : S_.BroadcastsInDim S64 (![] : Fin 0 → Fin S64.rank)
  bcast_S64_S64x1_0 : S64.BroadcastsInDim S64x1 (![0] : Fin 1 → Fin S64x1.rank)
  shapeCasts_S64_S1x64 : S64.ShapeCasts S1x64
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  reduces_S128x128_S128 : S128x128.Reduces [1] S128
  shapeCasts_S128_S128x1 : S128.ShapeCasts S128x1
  broadcasts_S128x1_S128x128 : S128x1.Broadcasts S128x128
  bitsLt_bf16_f32 : FTy.bits .bf16 < FTy.bits .f32
  broadcasts_S1x64_S128x64 : S1x64.Broadcasts S128x64
  reduces_S128x64_S128 : S128x64.Reduces [1] S128
  broadcasts_S128x1_S128x64 : S128x1.Broadcasts S128x64
  shapeCasts_S128x128_S128x1x128 : S128x128.ShapeCasts S128x1x128
  shapeCasts_S64x128_S1x64x128 : S64x128.ShapeCasts S1x64x128
  broadcasts_S128x1x128_S128x64x128 : S128x1x128.Broadcasts S128x64x128
  broadcasts_S1x64x128_S128x64x128 : S1x64x128.Broadcasts S128x64x128
  shapeCasts_S128x64_S128x64x1 : S128x64.ShapeCasts S128x64x1
  broadcasts_S128x64x1_S128x64x128 : S128x64x1.Broadcasts S128x64x128
  reduces_S128x64x128_S128x64 : S128x64x128.Reduces [2] S128x64
  shapeCasts_S128x64x128_S128x8192 : S128x64x128.ShapeCasts S128x8192
  reduces_S128x8192_S128 : S128x8192.Reduces [1] S128
  broadcasts_S128x1_S128x8192 : S128x1.Broadcasts S128x8192
  inb_S1x128x8192_S1x128x8192_0_0_0 : ∀ a, (![0, 0, 0] : Fin 3 → Nat) a + S1x128x8192.size a ≤ S1x128x8192.size a
  h_S1x128x8192 : 0 < S1x128x8192.numel
  shapeCasts_S1x128x8192_S128x8192 : S1x128x8192.ShapeCasts S128x8192
  shapeCasts_S128x8192_S1x128x8192 : S128x8192.ShapeCasts S1x128x8192
  gather_S8x256x128_S64x1_S8x64x128_02_1_n_n_1_1_81128_wf : GatherDims.WF S8x256x128 S64x1 S8x64x128 [0, 2] [1] [] [1] [] 1 ![8, 1, 128]
  dot_S128x128_S64x128_S128x64_1_1_0_0_n_n_wf : DotDims.WF S128x128 S64x128 S128x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S8x1024x128.size a
  hwx0_0 : ∀ i : grid0.Coords, EltTy.bits .f32 = 32 ∨ (Rect.block (s := S8x1024x128) S1x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x128.size a ≤ S8x64x128.size a
  hwx0_3 : ∀ i : grid0.Coords, EltTy.bits .f32 = 32 ∨ (Rect.block (s := S8x64x128) S1x64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x8192.size a ≤ S8x1024x8192.size a
  hwx0_4 : ∀ i : grid0.Coords, EltTy.bits .f32 = 32 ∨ (Rect.block (s := S8x1024x8192) S1x128x8192.size (cc0_transform_4 i) (hinb0_4 i)).WholeWords (EltTy.packing .f32)

variable [Facts₀]

def gather_S8x256x128_S64x1_S8x64x128_02_1_n_n_1_1_81128 : GatherDims S8x256x128 S64x1 S8x64x128 where
  offsetDims := [0, 2]
  collapsedSliceDims := [1]
  operandBatchingDims := []
  startIndicesBatchingDims := []
  startIndexMap := [1]
  indexVectorDim := 1
  sliceSizes := ![8, 1, 128]
  wf := gather_S8x256x128_S64x1_S8x64x128_02_1_n_n_1_1_81128_wf
def dot_S128x128_S64x128_S128x64_1_1_0_0_n_n : DotDims S128x128 S64x128 S128x64 where
  lhsContracting := [1]
  rhsContracting := [1]
  lhsNonContracting := [0]
  rhsNonContracting := [0]
  lhsBatch := []
  rhsBatch := []
  wf := dot_S128x128_S64x128_S128x64_1_1_0_0_n_n_wf

abbrev win0_0 : Pipeline.Window sig grid0 :=
  Pipeline.Window.ofSpec (Memref.whole main_arg0) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x64x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x1024x128 : Shape := ⟨3, ![8, 1024, 128]⟩
abbrev S8x256x128 : Shape := ⟨3, ![8, 256, 128]⟩
abbrev S64x128 : Shape := ⟨2, ![64, 128]⟩
abbrev S64 : Shape := ⟨1, ![64]⟩
abbrev S_ : Shape := ⟨0, ![]⟩
abbrev S8x1024 : Shape := ⟨2, ![8, 1024]⟩
abbrev S8x1024x1 : Shape := ⟨3, ![8, 1024, 1]⟩
abbrev S64x8x1024 : Shape := ⟨3, ![64, 8, 1024]⟩
abbrev S8x64x1024 : Shape := ⟨3, ![8, 64, 1024]⟩
abbrev S1x64x1 : Shape := ⟨3, ![1, 64, 1]⟩
abbrev S8x1x1024 : Shape := ⟨3, ![8, 1, 1024]⟩
abbrev S64x1 : Shape := ⟨2, ![64, 1]⟩
abbrev S8x64x128 : Shape := ⟨3, ![8, 64, 128]⟩
abbrev S8x1x1024x128 : Shape := ⟨4, ![8, 1, 1024, 128]⟩
abbrev S8x64x1x128 : Shape := ⟨4, ![8, 64, 1, 128]⟩
abbrev S8x64x1024x128 : Shape := ⟨4, ![8, 64, 1024, 128]⟩
abbrev S8x64x1024x1 : Shape := ⟨4, ![8, 64, 1024, 1]⟩
abbrev S8x1024x64x128 : Shape := ⟨4, ![8, 1024, 64, 128]⟩
abbrev S8x1024x64 : Shape := ⟨3, ![8, 1024, 64]⟩
abbrev S8x1024x64x1 : Shape := ⟨4, ![8, 1024, 64, 1]⟩
abbrev S8x1024x8192 : Shape := ⟨3, ![8, 1024, 8192]⟩

abbrev nBuf : Space → Nat
  | .hbm => 73
  | .vmem => 0
  | .smem => 0
  | _ => 0

abbrev bufTy : (tb : Table) → Fin (tcTables nBuf tb) → BufTy
  | .hbm, ⟨0, _⟩ => ⟨S8x1024x128, .f32⟩
  | .hbm, ⟨1, _⟩ => ⟨S8x256x128, .f32⟩
  | .hbm, ⟨2, _⟩ => ⟨S64x128, .f32⟩
  | .hbm, ⟨3, _⟩ => ⟨S64, .f32⟩
  | .hbm, ⟨4, _⟩ => ⟨S64, .i32⟩
  | .hbm, ⟨5, _⟩ => ⟨S8x1024x128, .f32⟩
  | .hbm, ⟨6, _⟩ => ⟨S_, .f32⟩
  | .hbm, ⟨7, _⟩ => ⟨S8x1024, .f32⟩
  | .hbm, ⟨8, _⟩ => ⟨S8x1024x1, .f32⟩
  | .hbm, ⟨9, _⟩ => ⟨S8x1024x1, .f32⟩
  | .hbm, ⟨10, _⟩ => ⟨S_, .f32⟩
  | .hbm, ⟨11, _⟩ => ⟨S8x1024x1, .f32⟩
  | .hbm, ⟨12, _⟩ => ⟨S8x1024x1, .f32⟩
  | .hbm, ⟨13, _⟩ => ⟨S8x1024x128, .f32⟩
  | .hbm, ⟨14, _⟩ => ⟨S8x1024x128, .f32⟩
  | .hbm, ⟨15, _⟩ => ⟨S64x8x1024, .f32⟩
  | .hbm, ⟨16, _⟩ => ⟨S8x64x1024, .f32⟩
  | .hbm, ⟨17, _⟩ => ⟨S1x64x1, .f32⟩
  | .hbm, ⟨18, _⟩ => ⟨S8x64x1024, .f32⟩
  | .hbm, ⟨19, _⟩ => ⟨S8x64x1024, .f32⟩
  | .hbm, ⟨20, _⟩ => ⟨S_, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S8x1x1024, .f32⟩
  | .hbm, ⟨26, _⟩ => ⟨S8x64x1024, .f32⟩
  | .hbm, ⟨27, _⟩ => ⟨S8x64x1024, .f32⟩
  | .hbm, ⟨28, _⟩ => ⟨S8x64x1024, .f32⟩
  | .hbm, ⟨29, _⟩ => ⟨S_, .f32⟩
  | .hbm, ⟨30, _⟩ => ⟨S8x1024, .f32⟩
  | .hbm, ⟨31, _⟩ => ⟨S8x1x1024, .f32⟩
  | .hbm, ⟨32, _⟩ => ⟨S8x64x1024, .f32⟩
  | .hbm, ⟨33, _⟩ => ⟨S8x64x1024, .f32⟩
  | .hbm, ⟨34, _⟩ => ⟨S_, .i32⟩
  | .hbm, ⟨35, _⟩ => ⟨S64, .i32⟩
  | .hbm, ⟨36, _⟩ => ⟨S64, .i1⟩
  | .hbm, ⟨37, _⟩ => ⟨S_, .i32⟩
  | .hbm, ⟨38, _⟩ => ⟨S64, .i32⟩
  | .hbm, ⟨39, _⟩ => ⟨S64, .i32⟩
  | .hbm, ⟨40, _⟩ => ⟨S64, .i32⟩
  | .hbm, ⟨41, _⟩ => ⟨S64x1, .i32⟩
  | .hbm, ⟨42, _⟩ => ⟨S8x64x128, .f32⟩
  | .hbm, ⟨43, _⟩ => ⟨S8x1x1024x128, .f32⟩
  | .hbm, ⟨44, _⟩ => ⟨S8x64x1x128, .f32⟩
  | .hbm, ⟨45, _⟩ => ⟨S8x64x1024x128, .f32⟩
  | .hbm, ⟨46, _⟩ => ⟨S8x64x1024x128, .f32⟩
  | .hbm, ⟨47, _⟩ => ⟨S8x64x1024x128, .f32⟩
  | .hbm, ⟨48, _⟩ => ⟨S8x64x1024x1, .f32⟩
  | .hbm, ⟨49, _⟩ => ⟨S8x64x1024x128, .f32⟩
  | .hbm, ⟨50, _⟩ => ⟨S8x64x1024x128, .f32⟩
  | .hbm, ⟨51, _⟩ => ⟨S8x1024x64x128, .f32⟩
  | .hbm, ⟨52, _⟩ => ⟨S8x1024x64x128, .f32⟩
  | .hbm, ⟨53, _⟩ => ⟨S_, .f32⟩
  | .hbm, ⟨54, _⟩ => ⟨S8x1024x64, .f32⟩
  | .hbm, ⟨55, _⟩ => ⟨S8x1024x64x1, .f32⟩
  | .hbm, ⟨56, _⟩ => ⟨S8x1024x64x1, .f32⟩
  | .hbm, ⟨57, _⟩ => ⟨S_, .f32⟩
  | .hbm, ⟨58, _⟩ => ⟨S8x1024x64x1, .f32⟩
  | .hbm, ⟨59, _⟩ => ⟨S8x1024x64x1, .f32⟩
  | .hbm, ⟨60, _⟩ => ⟨S8x1024x64x128, .f32⟩
  | .hbm, ⟨61, _⟩ => ⟨S8x1024x64x128, .f32⟩
  | .hbm, ⟨62, _⟩ => ⟨S8x1024x8192, .f32⟩
  | .hbm, ⟨63, _⟩ => ⟨S8x1024x8192, .f32⟩
  | .hbm, ⟨64, _⟩ => ⟨S_, .f32⟩
  | .hbm, ⟨65, _⟩ => ⟨S8x1024, .f32⟩
  | .hbm, ⟨66, _⟩ => ⟨S8x1024x1, .f32⟩
  | .hbm, ⟨67, _⟩ => ⟨S8x1024x1, .f32⟩
  | .hbm, ⟨68, _⟩ => ⟨S_, .f32⟩
  | .hbm, ⟨69, _⟩ => ⟨S8x1024x1, .f32⟩
  | .hbm, ⟨70, _⟩ => ⟨S8x1024x1, .f32⟩
  | .hbm, ⟨71, _⟩ => ⟨S8x1024x8192, .f32⟩
  | .hbm, ⟨72, _⟩ => ⟨S8x1024x8192, .f32⟩
  | _, _ => ⟨S8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]

class Facts₀ : Prop where
  reducesTo_S8x1024x128_S8x1024_d2 : S8x1024x128.ReducesTo [2] S8x1024
  h_S_ : 0 < S_.numel
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S8x1024x1_S8x1024x128_0_1_2 : S8x1024x1.BroadcastsInDim S8x1024x128 (![0, 1, 2] : Fin 3 → Fin S8x1024x128.rank)
  transposes_S64x8x1024_S8x64x1024_1_0_2 : S64x8x1024.Transposes [1, 0, 2] S8x64x1024
  bcast_S64_S1x64x1_1 : S64.BroadcastsInDim S1x64x1 (![1] : Fin 1 → Fin S1x64x1.rank)
  bcast_S1x64x1_S8x64x1024_0_1_2 : S1x64x1.BroadcastsInDim S8x64x1024 (![0, 1, 2] : Fin 3 → Fin S8x64x1024.rank)
  reducesTo_S8x64x1024_S8x1024_d1 : S8x64x1024.ReducesTo [1] S8x1024
  bcast_S_S8x1024 : S_.BroadcastsInDim S8x1024 (![] : Fin 0 → Fin S8x1024.rank)
  bcast_S8x1024_S8x1x1024_0_2 : S8x1024.BroadcastsInDim S8x1x1024 (![0, 2] : Fin 2 → Fin S8x1x1024.rank)
  bcast_S8x1x1024_S8x64x1024_0_1_2 : S8x1x1024.BroadcastsInDim S8x64x1024 (![0, 1, 2] : Fin 3 → Fin S8x64x1024.rank)
  bcast_S_S64 : S_.BroadcastsInDim S64 (![] : Fin 0 → Fin S64.rank)
  bcast_S64_S64x1_0 : S64.BroadcastsInDim S64x1 (![0] : Fin 1 → Fin S64x1.rank)
  bcast_S8x1024x128_S8x1x1024x128_0_2_3 : S8x1024x128.BroadcastsInDim S8x1x1024x128 (![0, 2, 3] : Fin 3 → Fin S8x1x1024x128.rank)
  bcast_S8x64x128_S8x64x1x128_0_1_3 : S8x64x128.BroadcastsInDim S8x64x1x128 (![0, 1, 3] : Fin 3 → Fin S8x64x1x128.rank)
  bcast_S8x1x1024x128_S8x64x1024x128_0_1_2_3 : S8x1x1024x128.BroadcastsInDim S8x64x1024x128 (![0, 1, 2, 3] : Fin 4 → Fin S8x64x1024x128.rank)
  bcast_S8x64x1x128_S8x64x1024x128_0_1_2_3 : S8x64x1x128.BroadcastsInDim S8x64x1024x128 (![0, 1, 2, 3] : Fin 4 → Fin S8x64x1024x128.rank)
  bcast_S8x64x1024_S8x64x1024x1_0_1_2 : S8x64x1024.BroadcastsInDim S8x64x1024x1 (![0, 1, 2] : Fin 3 → Fin S8x64x1024x1.rank)
  bcast_S8x64x1024x1_S8x64x1024x128_0_1_2_3 : S8x64x1024x1.BroadcastsInDim S8x64x1024x128 (![0, 1, 2, 3] : Fin 4 → Fin S8x64x1024x128.rank)
  transposes_S8x64x1024x128_S8x1024x64x128_0_2_1_3 : S8x64x1024x128.Transposes [0, 2, 1, 3] S8x1024x64x128
  reducesTo_S8x1024x64x128_S8x1024x64_d3 : S8x1024x64x128.ReducesTo [3] S8x1024x64
  bcast_S8x1024x64_S8x1024x64x1_0_1_2 : S8x1024x64.BroadcastsInDim S8x1024x64x1 (![0, 1, 2] : Fin 3 → Fin S8x1024x64x1.rank)
  bcast_S_S8x1024x64x1 : S_.BroadcastsInDim S8x1024x64x1 (![] : Fin 0 → Fin S8x1024x64x1.rank)
  bcast_S8x1024x64x1_S8x1024x64x128_0_1_2_3 : S8x1024x64x1.BroadcastsInDim S8x1024x64x128 (![0, 1, 2, 3] : Fin 4 → Fin S8x1024x64x128.rank)
  shapeCasts_S8x1024x64x128_S8x1024x8192 : S8x1024x64x128.ShapeCasts S8x1024x8192
  reducesTo_S8x1024x8192_S8x1024_d2 : S8x1024x8192.ReducesTo [2] S8x1024
  bcast_S8x1024x1_S8x1024x8192_0_1_2 : S8x1024x1.BroadcastsInDim S8x1024x8192 (![0, 1, 2] : Fin 3 → Fin S8x1024x8192.rank)
  dot_S64x128_S8x1024x128_S64x8x1024_1_2_0_01_n_n_wf : DotDims.WF S64x128 S8x1024x128 S64x8x1024 [1] [2] [0] [0, 1] [] []
  gather_S8x256x128_S64x1_S8x64x128_02_1_n_n_1_1_81128_wf : GatherDims.WF S8x256x128 S64x1 S8x64x128 [0, 2] [1] [] [1] [] 1 ![8, 1, 128]

variable [Facts₀]

def dot_S64x128_S8x1024x128_S64x8x1024_1_2_0_01_n_n : DotDims S64x128 S8x1024x128 S64x8x1024 where
  lhsContracting := [1]
  rhsContracting := [2]
  lhsNonContracting := [0]
  rhsNonContracting := [0, 1]
  lhsBatch := []
  rhsBatch := []
  wf := dot_S64x128_S8x1024x128_S64x8x1024_1_2_0_01_n_n_wf
def gather_S8x256x128_S64x1_S8x64x128_02_1_n_n_1_1_81128 : GatherDims S8x256x128 S64x1 S8x64x128 where
  offsetDims := [0, 2]
  collapsedSliceDims := [1]
  operandBatchingDims := []
  startIndicesBatchingDims := []
  startIndexMap := [1]
  indexVectorDim := 1
  sliceSizes := ![8, 1, 128]
  wf := gather_S8x256x128_S64x1_S8x64x128_02_1_n_n_1_1_81128_wf

class Facts : Prop extends Facts₀ where

variable [Facts]
-- ==== Proof.Spec.lean ====
/-
  The value both programs compute for one descriptor row, on the extended reals.

  A row `x` of `128` numbers is scaled to unit length (its entries divided by the larger of its Euclidean norm and a
  small floor). Its inner products with `64` weight rows, plus a bias, give `64` scores; a softmax over the scores
  gives `64` weights. For each of `64` centroid rows the difference between the unit row and the centroid is scaled
  by that centroid's weight, and each of these `64` residual rows is itself scaled to unit length. The `64 × 128`
  residuals, laid out one after another as `8192` numbers, are scaled to unit length once more.

  Every sum is a plain finite sum and every maximum a fold of `max` from minus infinity, so the order in which a
  program takes them does not matter.
-/
import Idealize.ShloMosaic.PureOps.Ideal

noncomputable section

namespace Cert.Spec

open Idealize.ShloMosaic

/-- The floor under every norm: the single-precision number nearest to `1e-12`. -/
abbrev floor : EReal := Ideal.ofBits .f32 0x2B8CBCCC#32

/-- Minus infinity, from which every maximum starts. -/
abbrev bottom : EReal := Ideal.ofBits .f32 0xFF800000#32

/-- A finite family scaled to unit length: each entry over the larger of the family's Euclidean norm and the floor. -/
def normed {n : ℕ} (v : Fin n → EReal) (i : Fin n) : EReal :=
  Ideal.div (v i) (max (Ideal.sqrt (∑ i', v i' * v i')) floor)

/-- The score of weight row `k`: the inner product of the unit row with it, plus its bias. -/
def score (x : Fin 128 → EReal) (w : Fin 64 → Fin 128 → EReal) (b : Fin 64 → EReal) (k : Fin 64) : EReal :=
  (∑ d, normed x d * w k d) + b k

/-- The softmax of `64` scores: the exponential of a score less the largest, over the sum of those exponentials. -/
def soft (l : Fin 64 → EReal) (k : Fin 64) : EReal :=
  Ideal.div (Ideal.exp (l k - (Finset.univ : Finset (Fin 64)).fold max bottom l))
    (∑ k', Ideal.exp (l k' - (Finset.univ : Finset (Fin 64)).fold max bottom l))

/-- The residual against centroid `k`, weighted by that centroid's softmax weight. -/
def resid (x : Fin 128 → EReal) (w : Fin 64 → Fin 128 → EReal) (b : Fin 64 → EReal) (ce : Fin 64 → Fin 128 → EReal)
    (k : Fin 64) (d : Fin 128) : EReal :=
  (normed x d - ce k d) * soft (score x w b) k

/-- The `64` unit-length residual rows laid out one after another: position `j` is entry `j % 128` of row `j / 128`. -/
def flat (x : Fin 128 → EReal) (w : Fin 64 → Fin 128 → EReal) (b : Fin 64 → EReal) (ce : Fin 64 → Fin 128 → EReal)
    (j : Fin 8192) : EReal :=
  normed (resid x w b ce ⟨j.val / 128, by have := j.isLt; omega⟩) ⟨j.val % 128, Nat.mod_lt _ (by decide)⟩

/-- The result for one row: the flattened residuals scaled to unit length. -/
def out (x : Fin 128 → EReal) (w : Fin 64 → Fin 128 → EReal) (b : Fin 64 → EReal) (ce : Fin 64 → Fin 128 → EReal)
    (j : Fin 8192) : EReal :=
  normed (flat x w b ce) j

/-- The row result depends on its four arguments only through their values. -/
theorem out_congr {x x' : Fin 128 → EReal} {w w' : Fin 64 → Fin 128 → EReal} {b b' : Fin 64 → EReal}
    {ce ce' : Fin 64 → Fin 128 → EReal} (hx : x = x') (hw : w = w') (hb : b = b') (hce : ce = ce') (j : Fin 8192) :
    out x w b ce j = out x' w' b' ce' j := by
  rw [hx, hw, hb, hce]

end Cert.Spec

end
-- ==== Proof.LibRowMax.lean ====
/-
  The maximum along the last axis of an array of extended reals, read at an index: the fold of `max` over the
  entries along that axis, started from the value the initial pattern denotes. Stated for the kernel-side
  reduction of an [a, b] array to [a] and for the host-side reduction of an [a, b, c] array to [a, b]; both are
  folds over the same finite set of positions, so a row maximum taken on a tile and the one taken on the whole
  array meet in one expression.
-/
import Idealize.ShloMosaic.PureOps.Ideal.Laws
import Idealize.ShloMosaic.Lib.ValueIdx

noncomputable section

namespace Cert.Lib.RowMax

open Idealize.ShloMosaic Idealize.ShloMosaic.ValueIdx

/-- A maximum over the last axis of an `[a, b]` array, read at `r`: the fold of `max` over row `r`. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f : Fin b → EReal => (Finset.univ : Finset (Fin b)).fold max (Ideal.ofBits φ acc) f)
    (funext fun k => congrArg src (funext fun ax => Fin.ext (by
      match ax with
      | ⟨0, _⟩ => rfl
      | ⟨1, _⟩ => rfl)))

/-- The same for a single-precision array whose printed initial pattern is minus infinity's, the proof argument
    typed as printed. -/
theorem rowMax_f32_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (r : Fin a) :
    multiReduction .maximumf [1] ⟨1, ![a]⟩ src 0xFF800000#32 h hφ hacc (ix1 r)
      = (Finset.univ : Finset (Fin b)).fold max (Ideal.ofBits .f32 0xFF800000#32) (fun k => src (ix2 r k)) :=
  rowMax_apply src _ h hφ hacc r

/-- The host's reduction by `max` over the last axis of an `[a, b, c]` array from a scalar initial value, read at
    `(p, q)`: the fold of `max` over the entries `(p, q, ·)`. -/
theorem hostRowMax3_apply {a b c : ℕ} {φ : FTy} (x : FVec Ideal ⟨3, ![a, b, c]⟩ φ) (init : (⟨0, ![]⟩ : Shape).Idx → Ideal φ)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (p : Fin a) (q : Fin b) :
    Host.reduce FloatOps.maximumf x init h' hu (ix2 p q)
      = (Finset.univ : Finset (Fin c)).fold max (init ix0) (fun k => x (ix3 p q k)) := by
  refine (Host.reduce_eq_fold_single FloatOps.maximumf x init h' h hu (ix2 p q)).trans ?_
  have e0 : init (Shape.Idx.first hu) = init ix0 := congrArg init (funext fun ax => ax.elim0)
  rw [e0]
  exact congrArg (fun f : Fin c → EReal => (Finset.univ : Finset (Fin c)).fold max (init ix0) f)
    (funext fun k => congrArg x (funext fun ax => Fin.ext (by
      match ax with
      | ⟨0, _⟩ => rfl
      | ⟨1, _⟩ => rfl
      | ⟨2, _⟩ => rfl)))

/-- A fold of `max` started from `b` is at least `b`, so taking the maximum with `b` once more changes nothing. -/
theorem max_fold_self {n : ℕ} (b : EReal) (s : Fin n → EReal) :
    max b ((Finset.univ : Finset (Fin n)).fold max b s) = (Finset.univ : Finset (Fin n)).fold max b s :=
  max_eq_right ((Finset.le_fold_max b).2 (Or.inl le_rfl))

end Cert.Lib.RowMax

end
-- ==== Proof.RefRow.lean ====
import proofs.«105806_j19292993093865_1_alg».proof.Proof.Gen.ReferenceIdeal.Read
import proofs.«105806_j19292993093865_1_alg».proof.Proof.Spec
import proofs.«105806_j19292993093865_1_alg».proof.Proof.LibRowMax
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.Lib.RowMax

/-- Two indices of a literal shape are equal when their coordinates are, axis by axis (one tactic per rank). -/
local macro "ixeq1" : tactic => `(tactic| (funext a; apply Fin.ext; match a with | ⟨0, _⟩ => rfl))
local macro "ixeq2" : tactic => `(tactic| (funext a; apply Fin.ext; match a with | ⟨0, _⟩ => rfl | ⟨1, _⟩ => rfl))
local macro "ixeq3" : tactic => `(tactic| (funext a; apply Fin.ext; match a with | ⟨0, _⟩ => rfl | ⟨1, _⟩ => rfl | ⟨2, _⟩ => rfl))
local macro "ixeq4" : tactic =>
  `(tactic| (funext a; apply Fin.ext; match a with | ⟨0, _⟩ => rfl | ⟨1, _⟩ => rfl | ⟨2, _⟩ => rfl | ⟨3, _⟩ => rfl))

variable (x0 : (⟨S8x1024x128, .f32⟩ : BufTy).Contents (Elt Ideal)) (x1 : (⟨S8x256x128, .f32⟩ : BufTy).Contents (Elt Ideal))
  (x2 : (⟨S64x128, .f32⟩ : BufTy).Contents (Elt Ideal)) (x3 : (⟨S64, .f32⟩ : BufTy).Contents (Elt Ideal))
  (x4 : (⟨S64, .i32⟩ : BufTy).Contents (Elt Ideal))

/-- The sum of squares of descriptor row `(n, c)`. -/
theorem sumsq_at (n : Fin 8) (c : Fin 1024) :
    val_main_v1 (F := Ideal) x0 (ix2 n c) = ∑ d : Fin 128, x0 (ix3 n c d) * x0 (ix3 n c d) := by
  rw [val_main_v1_apply]
  simp only [val_main_v0_apply, val_main_cst_apply, Ideal.mulf_def, Ideal.ofBits_def, Ideal.ofBits_zero_f32, zero_add]
  exact Finset.sum_congr rfl fun d _ => by rw [show idx_main_v1 (ix2 n c) d = ix3 n c d from by ixeq3]

/-- The normalised input at `(n, c, d)`: entry `d` of row `(n, c)` scaled to unit length. -/
theorem unit_at (n : Fin 8) (c : Fin 1024) (d : Fin 128) :
    val_main_v7 (F := Ideal) x0 (ix3 n c d) = Spec.normed (fun d' => x0 (ix3 n c d')) d := by
  rw [val_main_v7_apply, val_main_v6_apply, val_main_v5_apply, val_main_v3_apply, val_main_v2_apply, val_main_v4_apply,
    val_main_cst_0_apply, show idx_main_v2 (idx_main_v6 (ix3 n c d)) = ix2 n c from by ixeq2, sumsq_at]
  rfl

/-- The scores at `(n, k, c)`. -/
theorem score_at (n : Fin 8) (k : Fin 64) (c : Fin 1024) :
    val_main_v12 (F := Ideal) x0 x2 x3 (ix3 n k c)
      = Spec.score (fun d => x0 (ix3 n c d)) (fun k d => x2 (ix2 k d)) (fun k => x3 (ix1 k)) k := by
  rw [val_main_v12_apply, val_main_v9_apply, val_main_v8_apply, val_main_v11_apply, val_main_v10_apply,
    show idx_main_v10 (idx_main_v11 (ix3 n k c)) = ix1 k from by ixeq1]
  unfold Spec.score
  show _ + _ = _
  refine congrArg (· + _) (Finset.sum_congr rfl fun d _ => ?_)
  rw [show lidx_main_v8 (idx_main_v9 (ix3 n k c)) d = ix2 k d from by ixeq2,
    show ridx_main_v8 (idx_main_v9 (ix3 n k c)) d = ix3 n c d from by ixeq3, unit_at]
  exact mul_comm _ _

/-- The largest score of row `(n, c)`: the reduction over the cluster axis, then once more against minus infinity,
    which changes nothing. -/
theorem rowmax_at (n : Fin 8) (c : Fin 1024) :
    val_main_v15 (F := Ideal) x0 x2 x3 (ix2 n c)
      = (Finset.univ : Finset (Fin 64)).fold max Spec.bottom (Spec.score (fun d => x0 (ix3 n c d)) (fun k d => x2 (ix2 k d)) (fun k => x3 (ix1 k))) := by
  have h : S8x64x1024.Reduces [1] S8x1024 := by decide
  rw [val_main_v15_apply, val_main_v14_apply, val_main_cst_2_apply]
  unfold val_main_v13
  rw [Host.reduce_eq_fold_single FloatOps.maximumf _ _ reducesTo_S8x64x1024_S8x1024_d1 h h_S_ (ix2 n c)]
  show max Spec.bottom ((Finset.univ : Finset (Fin 64)).fold max Spec.bottom _) = _
  refine (max_fold_self (n := 64) Spec.bottom _).trans ?_
  exact congrArg (fun f : Fin 64 → EReal => (Finset.univ : Finset (Fin 64)).fold max Spec.bottom f)
    (funext fun k => (congrArg (val_main_v12 (F := Ideal) x0 x2 x3) (show h.lift (ix2 n c) k = ix3 n k c from by ixeq3)).trans
      (score_at x0 x2 x3 n k c))

/-- The exponential of a score less the row's largest. -/
theorem expo_at (n : Fin 8) (k : Fin 64) (c : Fin 1024) :
    val_main_v19 (F := Ideal) x0 x2 x3 (ix3 n k c)
      = Ideal.exp (Spec.score (fun d => x0 (ix3 n c d)) (fun k d => x2 (ix2 k d)) (fun k => x3 (ix1 k)) k
          - (Finset.univ : Finset (Fin 64)).fold max Spec.bottom (Spec.score (fun d => x0 (ix3 n c d)) (fun k d => x2 (ix2 k d)) (fun k => x3 (ix1 k)))) := by
  rw [val_main_v19_apply, val_main_v18_apply, val_main_v17_apply, val_main_v16_apply,
    show idx_main_v16 (idx_main_v17 (ix3 n k c)) = ix2 n c from by ixeq2, rowmax_at, score_at]
  rfl

/-- The softmax weights at `(n, k, c)`. -/
theorem soft_at (n : Fin 8) (k : Fin 64) (c : Fin 1024) :
    val_main_v23 (F := Ideal) x0 x2 x3 (ix3 n k c) = Spec.soft (Spec.score (fun d => x0 (ix3 n c d)) (fun k d => x2 (ix2 k d)) (fun k => x3 (ix1 k))) k := by
  rw [val_main_v23_apply, val_main_v22_apply, val_main_v21_apply,
    show idx_main_v21 (idx_main_v22 (ix3 n k c)) = ix2 n c from by ixeq2, val_main_v20_apply, expo_at]
  unfold Spec.soft
  simp only [val_main_cst_3_apply, Ideal.ofBits_def, Ideal.ofBits_zero_f32, zero_add,
    show ∀ k' : Fin 64, idx_main_v20 (ix2 n c) k' = ix3 n k' c from fun k' => by ixeq3, expo_at]
  rfl

/-- The weighted residual at `(n, c, k, d)`, the centroid rows read off the gathered array. -/
theorem resid_at (n : Fin 8) (c : Fin 1024) (k : Fin 64) (d : Fin 128) :
    val_main_v39 (F := Ideal) x0 x1 x2 x3 x4 (ix4 n c k d) = Spec.resid (fun d => x0 (ix3 n c d)) (fun k d => x2 (ix2 k d)) (fun k => x3 (ix1 k)) (fun k d => val_main_v30 (F := Ideal) x1 x4 (ix3 n k d)) k d := by
  rw [val_main_v39_apply, val_main_v38_apply, val_main_v35_apply, val_main_v33_apply, val_main_v31_apply, val_main_v34_apply,
    val_main_v32_apply, val_main_v37_apply, val_main_v36_apply,
    show idx_main_v31 (idx_main_v33 (idx_main_v39 (ix4 n c k d))) = ix3 n c d from by ixeq3,
    show idx_main_v32 (idx_main_v34 (idx_main_v39 (ix4 n c k d))) = ix3 n k d from by ixeq3,
    show idx_main_v36 (idx_main_v37 (idx_main_v39 (ix4 n c k d))) = ix3 n k c from by ixeq3,
    unit_at, soft_at]
  rfl

/-- The residual rows at unit length. -/
theorem normedResid_at (n : Fin 8) (c : Fin 1024) (k : Fin 64) (d : Fin 128) :
    val_main_v47 (F := Ideal) x0 x1 x2 x3 x4 (ix4 n c k d) = Spec.normed (Spec.resid (fun d => x0 (ix3 n c d)) (fun k d => x2 (ix2 k d)) (fun k => x3 (ix1 k)) (fun k d => val_main_v30 (F := Ideal) x1 x4 (ix3 n k d)) k) d := by
  rw [val_main_v47_apply, val_main_v46_apply, val_main_v45_apply, val_main_v43_apply, val_main_v42_apply, val_main_v44_apply,
    val_main_cst_6_apply, show idx_main_v42 (idx_main_v46 (ix4 n c k d)) = ix3 n c k from by ixeq3, val_main_v41_apply, resid_at]
  unfold Spec.normed
  simp only [val_main_cst_5_apply, val_main_v40_apply, Ideal.ofBits_def, Ideal.ofBits_zero_f32, zero_add, Ideal.mulf_def,
    show ∀ d' : Fin 128, idx_main_v41 (ix3 n c k) d' = ix4 n c k d' from fun d' => by ixeq4, resid_at]
  rfl

/-- The flattened residuals at `(n, c, j)`. -/
theorem flat_at (n : Fin 8) (c : Fin 1024) (j : Fin 8192) :
    val_main_v48 (F := Ideal) x0 x1 x2 x3 x4 (ix3 n c j) = Spec.flat (fun d => x0 (ix3 n c d)) (fun k d => x2 (ix2 k d)) (fun k => x3 (ix1 k)) (fun k d => val_main_v30 (F := Ideal) x1 x4 (ix3 n k d)) j := by
  have e : idx_main_v48 (ix3 n c j)
      = ix4 n c (⟨j.val / 128, by have := j.isLt; omega⟩ : Fin 64) (⟨j.val % 128, Nat.mod_lt _ (by decide)⟩ : Fin 128) := by
    funext a; apply Fin.ext
    have hn := n.isLt; have hc := c.isLt; have hj := j.isLt
    match a with
    | ⟨0, _⟩ => show ((n.val * 1024 + c.val) * 8192 + j.val) / 8388608 = n.val; omega
    | ⟨1, _⟩ => show ((n.val * 1024 + c.val) * 8192 + j.val) / 8192 % 1024 = c.val; omega
    | ⟨2, _⟩ => show ((n.val * 1024 + c.val) * 8192 + j.val) / 128 % 64 = j.val / 128; omega
    | ⟨3, _⟩ => show ((n.val * 1024 + c.val) * 8192 + j.val) % 128 = j.val % 128; omega
  rw [val_main_v48_apply, e, normedResid_at]
  rfl

/-- The sum of squares of the flattened residuals of row `(n, c)`. -/
theorem flatsq_at (n : Fin 8) (c : Fin 1024) :
    val_main_v50 (F := Ideal) x0 x1 x2 x3 x4 (ix2 n c)
      = ∑ j' : Fin 8192, Spec.flat (fun d => x0 (ix3 n c d)) (fun k d => x2 (ix2 k d)) (fun k => x3 (ix1 k)) (fun k d => val_main_v30 (F := Ideal) x1 x4 (ix3 n k d)) j' * Spec.flat (fun d => x0 (ix3 n c d)) (fun k d => x2 (ix2 k d)) (fun k => x3 (ix1 k)) (fun k d => val_main_v30 (F := Ideal) x1 x4 (ix3 n k d)) j' := by
  rw [val_main_v50_apply, val_main_cst_7_apply]
  show Ideal.ofBits .f32 0x00000000#32 + _ = _
  rw [Ideal.ofBits_zero_f32, zero_add]
  refine Finset.sum_congr rfl fun j' _ => ?_
  rw [show idx_main_v50 (ix2 n c) j' = ix3 n c j' from by ixeq3, val_main_v49_apply, flat_at]
  rfl

/-- THE REFERENCE'S RESULT at `(n, c, j)`: the specification's row result of descriptor row `(n, c)`, the weight rows,
    the biases and sample `n`'s gathered centroid rows. -/
theorem out_at (n : Fin 8) (c : Fin 1024) (j : Fin 8192) :
    val_main_v56 (F := Ideal) x0 x1 x2 x3 x4 (ix3 n c j) = Spec.out (fun d => x0 (ix3 n c d)) (fun k d => x2 (ix2 k d)) (fun k => x3 (ix1 k)) (fun k d => val_main_v30 (F := Ideal) x1 x4 (ix3 n k d)) j := by
  rw [val_main_v56_apply, val_main_v55_apply, val_main_v54_apply, val_main_v52_apply, val_main_v51_apply, val_main_v53_apply,
    val_main_cst_8_apply, show idx_main_v51 (idx_main_v55 (ix3 n c j)) = ix2 n c from by ixeq2, flatsq_at, flat_at]
  rfl

end Cert.ReferenceIdeal.RefValue

end
-- ==== Proof.LibRowOps.lean ====
/-
  Layout operations on arrays of rows, read at an index.

  A row-wise sum, the column-vector forms of a reshape and of a broadcast, the two pieces of a
  concatenation along the last axis, and the plain matrix product into a zero accumulator — each read at
  `(r, c)` as the operand's elements it depends on.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.Lib.RowOps

open Idealize.ShloMosaic Idealize.ShloMosaic.ValueIdx

variable {α : Type}

/-- A length-`a` vector reshaped to a column `[a, 1]` reads, at `(r, 0)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast to `[a, b]` reads, at `(r, c)`, the column at `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Two arrays joined along the last axis: a column below the first extent is the first array's. -/
theorem concat_cols_left {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (hc : c.val < b₁) :
    concatenate ⟨2, ![a, b₁ + b₂]⟩ 1 [⟨⟨2, ![a, b₁]⟩, x₁⟩, ⟨⟨2, ![a, b₂]⟩, x₂⟩] h (ix2 r c) = x₁ (ix2 r ⟨c.val, hc⟩) :=
  concatenate_pair_apply_left 1 x₁ x₂ h (ix2 r c) rfl (ix2 r ⟨c.val, hc⟩) (fun b => by
    match b with
    | ⟨0, _⟩ => rfl
    | ⟨1, _⟩ => rfl)

/-- … and a column from the first extent on is the second array's, the first extent less. -/
theorem concat_cols_right {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (c' : Fin b₂)
    (hc : c'.val + b₁ = c.val) :
    concatenate ⟨2, ![a, b₁ + b₂]⟩ 1 [⟨⟨2, ![a, b₁]⟩, x₁⟩, ⟨⟨2, ![a, b₂]⟩, x₂⟩] h (ix2 r c) = x₂ (ix2 r c') :=
  concatenate_pair_apply_right 1 x₁ x₂ h (ix2 r c) rfl rfl (ix2 r c') (fun b hb => by
    match b with
    | ⟨0, _⟩ => rfl
    | ⟨1, _⟩ => exact absurd rfl hb) hc

/-- A length-`b` vector broadcast to a one-row array `[1, b]` along its second axis reads, at `(u, c)`, the vector at `c`. -/
theorem bcastInDim_b_1b {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row array `[1, b]` broadcast to `[a, b]` axis by axis reads, at `(p, c)`, the row at `c`. -/
theorem bcastInDim_1b_ab {a b : ℕ} (x : (⟨2, ![1, b]⟩ : Shape).Idx → α) (h : (⟨2, ![1, b]⟩ : Shape).BroadcastsInDim ⟨2, ![a, b]⟩ ![0, 1])
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A column `[a, 1]` broadcast to `[a, b]` axis by axis reads, at `(p, c)`, the column at `p`. -/
theorem bcastInDim_a1_ab {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A length-`a` vector broadcast to a column `[a, 1]` along its first axis reads, at `(p, u)`, the vector at `p`. -/
theorem bcastInDim_a_a1 {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A scalar broadcast to any shape reads the scalar everywhere. -/
theorem bcastInDim_scalar {t : Shape} (x : (⟨0, ![]⟩ : Shape).Idx → α) (h : (⟨0, ![]⟩ : Shape).BroadcastsInDim t ![]) (i : t.Idx) :
    broadcastInDim t ![] h x i = x ix0 :=
  broadcastInDim_apply _ h x i ix0 fun ax => ax.elim0

/-- A sum over the last axis of an `[a, b]` array of extended reals, read at `r`: the row's sum. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- The same for a single-precision array whose printed accumulator is the zero pattern, the proof argument typed as printed. -/
theorem rowSum_f32_apply {a b : ℕ} (src : FVec Ideal ⟨2, ![a, b]⟩ .f32)
    (h : (⟨2, ![a, b]⟩ : Shape).Reduces [1] ⟨1, ![a]⟩) (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) :=
  rowSum_apply src _ h hφ hacc r

/-- The plain product of an `m×k` by a `k×n` matrix accumulated into zeros, read at `(a, b)` on the extended reals. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  have e : matmul (DotDims.plain m k n) prec A B (constant ⟨2, ![m, n]⟩ .f32 0x00000000#32) (ix2 a b)
      = Host.dotGeneral (DotDims.plain m k n) prec A B (ix2 a b) := by
    show FloatOps.matmul _ prec A B _ (ix2 a b) = FloatOps.dotGeneral _ prec _ A B (ix2 a b)
    rw [Ideal.matmul_constant_zero_apply, Ideal.dotGeneral_apply]
  rw [e]
  exact StackMember.dotGeneral_plain_apply prec A B a b

end Cert.Lib.RowOps

end
-- ==== Proof.LibTileOps.lean ====
/-
  Layout operations on rank-3 arrays read at an index, and a row scaled by its Euclidean norm.

  An `[a, b]` array viewed as `[a, 1, b]` or as `[a, b, 1]`; an array with one unit axis repeated along that axis to
  `[a, b, c]`; the sum over the last axis of an `[a, b, c]` array; an `[a, b, c]` array flattened to `[a, b·c]`; and,
  for an `[a, b]` array of extended reals, each entry divided by the larger of its row's Euclidean norm and a floor.
-/
import Idealize.ShloMosaic.PureOps.Ideal.Laws
import Idealize.ShloMosaic.Lib.ValueIdx
import Idealize.ShloMosaic.Lib.Pipeline.Value
import proofs.«105806_j19292993093865_1_alg».proof.Proof.LibRowOps

noncomputable section

namespace Cert.Lib.TileOps

open Idealize.ShloMosaic Idealize.ShloMosaic.ValueIdx Cert.Lib.RowOps

variable {α : Type}

/-- An `[a, b]` array viewed as `[a, 1, b]` reads, at `(r, 0, d)`, the array at `(r, d)`. -/
theorem shapeCast_ab_a1b_apply {a b : ℕ} (x : (⟨2, ![a, b]⟩ : Shape).Idx → α)
    (h : (⟨2, ![a, b]⟩ : Shape).ShapeCasts ⟨3, ![a, 1, b]⟩) (r : Fin a) (u : Fin 1) (d : Fin b) :
    shapeCast ⟨3, ![a, 1, b]⟩ x h (ix3 r u d) = x (ix2 r d) :=
  shapeCast_apply x h _ _ (by
    have hu : u.val = 0 := by omega
    rw [Shape.rowMajor_val_three, Shape.rowMajor_val_two]
    show r.val * b + d.val = (r.val * 1 + u.val) * b + d.val
    rw [hu, Nat.mul_one, Nat.add_zero])

/-- An `[a, b]` array viewed as `[a, b, 1]` reads, at `(r, k, 0)`, the array at `(r, k)`. -/
theorem shapeCast_ab_ab1_apply {a b : ℕ} (x : (⟨2, ![a, b]⟩ : Shape).Idx → α)
    (h : (⟨2, ![a, b]⟩ : Shape).ShapeCasts ⟨3, ![a, b, 1]⟩) (r : Fin a) (k : Fin b) (u : Fin 1) :
    shapeCast ⟨3, ![a, b, 1]⟩ x h (ix3 r k u) = x (ix2 r k) :=
  shapeCast_apply x h _ _ (by
    have hu : u.val = 0 := by omega
    rw [Shape.rowMajor_val_three, Shape.rowMajor_val_two]
    show r.val * b + k.val = (r.val * b + k.val) * 1 + u.val
    rw [hu, Nat.mul_one, Nat.add_zero])

/-- An `[a, 1, c]` array repeated along its middle axis reads, at `(r, k, d)`, the array at `(r, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (k : Fin b) (d : Fin c) :
    broadcastTo ⟨3, ![a, b, c]⟩ v h (ix3 r k d) = v (ix3 r (0 : Fin 1) d) := by
  refine broadcastTo_apply v h (ix3 r k d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if c = 1 then 0 else d.val
    split
    · have := d.isLt; omega
    · rfl

/-- A `[1, b, c]` array repeated along its first axis reads, at `(r, k, d)`, the array at `(0, k, d)`. -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (k : Fin b) (d : Fin c) :
    broadcastTo ⟨3, ![a, b, c]⟩ v h (ix3 r k d) = v (ix3 (0 : Fin 1) k d) := by
  refine broadcastTo_apply v h (ix3 r k d) (ix3 (0 : Fin 1) k d) fun ax => ?_
  match ax with
  | ⟨0, _⟩ => rfl
  | ⟨1, _⟩ =>
    show k.val = if b = 1 then 0 else k.val
    split
    · have := k.isLt; omega
    · rfl
  | ⟨2, _⟩ =>
    show d.val = if c = 1 then 0 else d.val
    split
    · have := d.isLt; omega
    · rfl

/-- An `[a, b, 1]` array repeated along its last axis reads, at `(r, k, d)`, the array at `(r, k, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (k : Fin b) (d : Fin c) :
    broadcastTo ⟨3, ![a, b, c]⟩ v h (ix3 r k d) = v (ix3 r k (0 : Fin 1)) := by
  refine broadcastTo_apply v h (ix3 r k d) (ix3 r k (0 : Fin 1)) fun ax => ?_
  match ax with
  | ⟨0, _⟩ =>
    show r.val = if a = 1 then 0 else r.val
    split
    · have := r.isLt; omega
    · rfl
  | ⟨1, _⟩ =>
    show k.val = if b = 1 then 0 else k.val
    split
    · have := k.isLt; omega
    · rfl
  | ⟨2, _⟩ => rfl

/-- The sum over the last axis of an `[a, b, c]` array of extended reals, read at `(r, k)`. -/
theorem lastSum3_f32_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (r : Fin a) (k : Fin b) :
    multiReduction .add [2] ⟨2, ![a, b]⟩ src 0x00000000#32 h hφ hacc (ix2 r k) = ∑ d : Fin c, src (ix3 r k d) := by
  refine (Ideal.multiReduction_add_single src _ h hφ hacc (ix2 r k)).trans ?_
  refine Finset.sum_congr rfl fun d _ => congrArg src (funext fun ax => Fin.ext ?_)
  match ax with
  | ⟨0, _⟩ => rfl
  | ⟨1, _⟩ => rfl
  | ⟨2, _⟩ => rfl

/-- An `[a, b, c]` array flattened to `[a, n]`, `n = b·c`: position `j = k·c + d` of row `r` is the entry `(r, k, d)`. -/
theorem shapeCast_abc_an_apply {a b c n : ℕ} (x : (⟨3, ![a, b, c]⟩ : Shape).Idx → α)
    (h : (⟨3, ![a, b, c]⟩ : Shape).ShapeCasts ⟨2, ![a, n]⟩) (hn : n = b * c) (r : Fin a) (j : Fin n) (k : Fin b) (d : Fin c)
    (hj : j.val = k.val * c + d.val) :
    shapeCast ⟨2, ![a, n]⟩ x h (ix2 r j) = x (ix3 r k d) :=
  shapeCast_apply x h _ _ (by
    rw [Shape.rowMajor_val_three, Shape.rowMajor_val_two]
    show (r.val * b + k.val) * c + d.val = r.val * n + j.val
    rw [hj, hn]; ring)

/-- Each entry of an `[a, b]` array over the larger of its row's Euclidean norm and a floor `e`, the norm taken as a
    row sum of squares, laid out as a column and repeated along the row. -/
theorem unitRows_apply {a b : ℕ} (x : FVec Ideal ⟨2, ![a, b]⟩ .f32)
    (hr : (⟨2, ![a, b]⟩ : Shape).Reduces [1] ⟨1, ![a]⟩) (hφ : FKind.Formats .f32)
    (hadd : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (e : Ideal .f32) (r : Fin a) (c : Fin b) :
    divf x (broadcastTo ⟨2, ![a, b]⟩ (maximumf (sqrt (shapeCast ⟨2, ![a, 1]⟩
        (multiReduction .add [1] ⟨1, ![a]⟩ (mulf x x) 0x00000000#32 hr hφ hadd) hc)) (broadcast ⟨2, ![a, 1]⟩ e)) hb) (ix2 r c)
      = Ideal.div (x (ix2 r c)) (max (Ideal.sqrt (∑ c' : Fin b, x (ix2 r c') * x (ix2 r c'))) e) := by
  refine congrArg (Ideal.div _) ((broadcastTo_a1_ab_apply _ hb r c).trans ?_)
  exact congrArg (fun s => max (Ideal.sqrt s) e)
    ((shapeCast_a_a1_apply _ hc r 0).trans (rowSum_f32_apply _ hr hφ hadd r))

end Cert.Lib.TileOps

end
-- ==== Proof.LibSoftmaxRows.lean ====
/-
  A row softmax of an [a, b] array of extended reals in its usual five steps — row maximum, subtraction, exponential,
  row sum, division — with the row statistics laid out as a column [a, 1] and repeated along each row, read at an
  index (r, k): the exponential of the entry less the row's maximum, over the sum of those exponentials along the row.
-/
import Idealize.ShloMosaic.PureOps.Ideal.Laws
import Idealize.ShloMosaic.Lib.ValueIdx
import proofs.«105806_j19292993093865_1_alg».proof.Proof.LibRowOps
import proofs.«105806_j19292993093865_1_alg».proof.Proof.LibRowMax

noncomputable section

namespace Cert.Lib.SoftmaxRows

open Idealize.ShloMosaic Idealize.ShloMosaic.ValueIdx Cert.Lib.RowOps Cert.Lib.RowMax

/-- A vector of row statistics laid out as a column and repeated along each row reads, at `(r, c)`, the statistic of row `r`. -/
theorem keepdims_apply {α : Type} {a b : ℕ} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (r : Fin a) (c : Fin b) :
    broadcastTo ⟨2, ![a, b]⟩ (shapeCast ⟨2, ![a, 1]⟩ v hc) hb (ix2 r c) = v (ix1 r) :=
  (broadcastTo_a1_ab_apply _ hb r c).trans (shapeCast_a_a1_apply v hc r 0)

/-- The five-step row softmax read at `(r, k)`. -/
theorem softmax_rows_apply {a b : ℕ} (s : FVec Ideal ⟨2, ![a, b]⟩ .f32)
    (hr : (⟨2, ![a, b]⟩ : Shape).Reduces [1] ⟨1, ![a]⟩) (hφ : FKind.Formats .f32)
    (hmax : (0xFF800000#32 : BitVec 32) = 0xFF800000#32) (hadd : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (r : Fin a) (k : Fin b) :
    divf
        (exp (subf s (broadcastTo ⟨2, ![a, b]⟩ (shapeCast ⟨2, ![a, 1]⟩
          (multiReduction .maximumf [1] ⟨1, ![a]⟩ s 0xFF800000#32 hr hφ hmax) hc) hb)))
        (broadcastTo ⟨2, ![a, b]⟩ (shapeCast ⟨2, ![a, 1]⟩
          (multiReduction .add [1] ⟨1, ![a]⟩
            (exp (subf s (broadcastTo ⟨2, ![a, b]⟩ (shapeCast ⟨2, ![a, 1]⟩
              (multiReduction .maximumf [1] ⟨1, ![a]⟩ s 0xFF800000#32 hr hφ hmax) hc) hb)))
            0x00000000#32 hr hφ hadd) hc) hb)
        (ix2 r k)
      = Ideal.div
          (Ideal.exp (s (ix2 r k) - (Finset.univ : Finset (Fin b)).fold max (Ideal.ofBits .f32 0xFF800000#32) (fun k' => s (ix2 r k'))))
          (∑ k' : Fin b, Ideal.exp (s (ix2 r k')
            - (Finset.univ : Finset (Fin b)).fold max (Ideal.ofBits .f32 0xFF800000#32) (fun k'' => s (ix2 r k'')))) := by
  have hM : ∀ k' : Fin b,
      broadcastTo ⟨2, ![a, b]⟩ (shapeCast ⟨2, ![a, 1]⟩
          (multiReduction .maximumf [1] ⟨1, ![a]⟩ s 0xFF800000#32 hr hφ hmax) hc) hb (ix2 r k')
        = (Finset.univ : Finset (Fin b)).fold max (Ideal.ofBits .f32 0xFF800000#32) (fun k'' => s (ix2 r k'')) :=
    fun k' => (keepdims_apply _ hc hb r k').trans (rowMax_f32_apply s hr hφ hmax r)
  have hE : ∀ k' : Fin b,
      exp (subf s (broadcastTo ⟨2, ![a, b]⟩ (shapeCast ⟨2, ![a, 1]⟩
          (multiReduction .maximumf [1] ⟨1, ![a]⟩ s 0xFF800000#32 hr hφ hmax) hc) hb)) (ix2 r k')
        = Ideal.exp (s (ix2 r k') - (Finset.univ : Finset (Fin b)).fold max (Ideal.ofBits .f32 0xFF800000#32) (fun k'' => s (ix2 r k''))) :=
    fun k' => congrArg (fun m => Ideal.exp (s (ix2 r k') - m)) (hM k')
  refine (congrArg (Ideal.div _) ((keepdims_apply _ hc hb r k).trans (rowSum_f32_apply _ hr hφ hadd r))).trans ?_
  rw [hE k]
  exact congrArg (Ideal.div _) (Finset.sum_congr rfl fun k' _ => hE k')

end Cert.Lib.SoftmaxRows

end
-- ==== Proof.LibMatmulSum.lean ====
/-
  The matrix unit's product with ONE contracted axis into a zero accumulator, on the extended reals and whatever
  precision it is asked for, read at an index as a plain sum over that axis: the caller names the two operands'
  indices at contraction position k, and the sum is re-indexed by the axis's one coordinate.
-/
import Idealize.ShloMosaic.Lib.ValueIdx
import Idealize.ShloMosaic.PureOps.Ideal.Laws

namespace Cert.Lib.MatmulSum

open Idealize.ShloMosaic Idealize.ShloMosaic.ValueIdx

/-- A product into zeros at an output index is the sum over the contracted axis of the operands' products, each read
    where the dimension numbers put it. -/
theorem matmul_zero_eq_sum {sl sr so : Shape} {φ₁ φ₂ : FTy} (d : DotDims sl sr so) (prec : Option ContractPrecision)
    (K : Nat) (hr : d.contr.rank = 1) (hs : d.contr.size ⟨0, by omega⟩ = K)
    (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d prec x w (constant so .f32 0x00000000#32) j = ∑ k : Fin K, x (li k) * w (ri k) := by
  show FloatOps.matmul d prec x w (constant so .f32 0x00000000#32) j = _
  rw [Ideal.matmul_constant_zero_apply, ← Equiv.sum_comp (contrEquiv1 d K hr hs).symm]
  exact Finset.sum_congr rfl fun k _ => by rw [hl k, hw k]

end Cert.Lib.MatmulSum
-- ==== Proof.KernelRow.lean ====
import proofs.«105806_j19292993093865_1_alg».proof.Proof.Gen.KernelIdeal.Skeleton
import proofs.«105806_j19292993093865_1_alg».proof.Proof.Spec
import proofs.«105806_j19292993093865_1_alg».proof.Proof.LibTileOps
import proofs.«105806_j19292993093865_1_alg».proof.Proof.LibSoftmaxRows
import proofs.«105806_j19292993093865_1_alg».proof.Proof.LibMatmulSum
import Idealize.ShloMosaic.Lib.ValueLayout

noncomputable section

namespace Cert.KernelIdeal.Body

open Cert.KernelIdeal Cert.KernelIdeal.Gen
open Idealize.ShloMosaic Idealize.ShloMosaic.ValueIdx
open Cert.Lib.RowOps Cert.Lib.TileOps Cert.Lib.SoftmaxRows Cert.Lib.MatmulSum

variable (v0 : Vec Ideal S1x128x128 .f32) (v2 : Vec Ideal S64x128 .f32) (v3 : Vec Ideal S1x64 .f32) (v5 : Vec Ideal S1x64x128 .f32)

example : (Scalar.ofBits .f32 0x2B8CBCCC#32 : Ideal .f32) = Ideal.ofBits .f32 0x2B8CBCCC#32 := rfl

/-- The tile of rows, each at unit length. -/
def unitTile : FVec Ideal S128x128 .f32 :=
  divf (shapeCast S128x128 v0 shapeCasts_S1x128x128_S128x128)
    (broadcastTo S128x128 (maximumf (sqrt (shapeCast S128x1 (multiReduction .add [1] S128
      (mulf (shapeCast S128x128 v0 shapeCasts_S1x128x128_S128x128) (shapeCast S128x128 v0 shapeCasts_S1x128x128_S128x128))
      0x00000000#32 reduces_S128x128_S128 (.inl rfl) rfl) shapeCasts_S128_S128x1))
      (broadcast S128x1 (Scalar.ofBits .f32 0x2B8CBCCC#32))) broadcasts_S128x1_S128x128)

/-- The tile's scores against the weight rows. -/
def scores : FVec Ideal S128x64 .f32 :=
  addf (matmul dot_S128x128_S64x128_S128x64_1_1_0_0_n_n none (truncf .bf16 (unitTile v0) bitsLt_bf16_f32)
      (truncf .bf16 v2 bitsLt_bf16_f32) (constant S128x64 .f32 0x00000000#32))
    (broadcastTo S128x64 (shapeCast S1x64 v3 shapeCasts_S1x64_S1x64) broadcasts_S1x64_S128x64)

/-- The softmax of each row of scores. -/
def weights : FVec Ideal S128x64 .f32 :=
  divf
    (exp (subf (scores v0 v2 v3) (broadcastTo S128x64 (shapeCast S128x1
      (multiReduction .maximumf [1] S128 (scores v0 v2 v3) 0xFF800000#32 reduces_S128x64_S128 (.inl rfl) rfl) shapeCasts_S128_S128x1) broadcasts_S128x1_S128x64)))
    (broadcastTo S128x64 (shapeCast S128x1
      (multiReduction .add [1] S128
        (exp (subf (scores v0 v2 v3) (broadcastTo S128x64 (shapeCast S128x1
          (multiReduction .maximumf [1] S128 (scores v0 v2 v3) 0xFF800000#32 reduces_S128x64_S128 (.inl rfl) rfl) shapeCasts_S128_S128x1) broadcasts_S128x1_S128x64)))
        0x00000000#32 reduces_S128x64_S128 (.inl rfl) rfl) shapeCasts_S128_S128x1) broadcasts_S128x1_S128x64)

/-- The first payload is the weighted residual of the unit rows against the centroid rows. -/
theorem pay2_eq : k0_pay2 v0 v2 v3 v5
    = mulf (subf (broadcastTo S128x64x128 (shapeCast S128x1x128 (unitTile v0) shapeCasts_S128x128_S128x1x128) broadcasts_S128x1x128_S128x64x128)
        (broadcastTo S128x64x128 (shapeCast S1x64x128 (shapeCast S64x128 v5 shapeCasts_S1x64x128_S64x128) shapeCasts_S64x128_S1x64x128) broadcasts_S1x64x128_S128x64x128))
      (broadcastTo S128x64x128 (shapeCast S128x64x1 (weights v0 v2 v3) shapeCasts_S128x64_S128x64x1) broadcasts_S128x64x1_S128x64x128) := rfl

/-! ## Each named array at an index -/

/-- The unit tile at `(r, d)`: entry `d` of row `r` of the loaded tile, scaled to unit length. -/
theorem unitTile_apply (r d : Fin 128) :
    unitTile v0 (ix2 r d) = Spec.normed (fun d' => v0 (ix3 (0 : Fin 1) r d')) d := by
  have hx : ∀ d' : Fin 128, shapeCast S128x128 v0 shapeCasts_S1x128x128_S128x128 (ix2 r d') = v0 (ix3 (0 : Fin 1) r d') :=
    fun d' => shapeCast_1ab_ab_apply v0 _ r d'
  refine (unitRows_apply (shapeCast S128x128 v0 shapeCasts_S1x128x128_S128x128) reduces_S128x128_S128 (.inl rfl) rfl
    shapeCasts_S128_S128x1 broadcasts_S128x1_S128x128 (Scalar.ofBits .f32 0x2B8CBCCC#32) r d).trans ?_
  unfold Spec.normed
  simp only [hx]
  rfl

/-- The product's left operand is read in the output's row, -/
theorem dot_lhs_row (j : S128x64.Idx) (q : dot_S128x128_S64x128_S128x64_1_1_0_0_n_n.contr.Idx) :
    (dot_S128x128_S64x128_S128x64_1_1_0_0_n_n.lhsIdx j q 0).val = (j 0).val := by
  unfold DotDims.lhsIdx
  rw [dif_neg (show ¬(0 : Fin S128x128.rank) ∈ dot_S128x128_S64x128_S128x64_1_1_0_0_n_n.lhsBatch by decide),
    dif_pos (show (0 : Fin S128x128.rank) ∈ dot_S128x128_S64x128_S128x64_1_1_0_0_n_n.lhsNonContracting by decide)]
  rfl

/-- and its right operand in the row the output's column names. -/
theorem dot_rhs_row (j : S128x64.Idx) (q : dot_S128x128_S64x128_S128x64_1_1_0_0_n_n.contr.Idx) :
    (dot_S128x128_S64x128_S128x64_1_1_0_0_n_n.rhsIdx j q 0).val = (j 1).val := by
  unfold DotDims.rhsIdx
  rw [dif_neg (show ¬(0 : Fin S64x128.rank) ∈ dot_S128x128_S64x128_S128x64_1_1_0_0_n_n.rhsBatch by decide),
    dif_pos (show (0 : Fin S64x128.rank) ∈ dot_S128x128_S64x128_S128x64_1_1_0_0_n_n.rhsNonContracting by decide)]
  rfl

/-- The scores at `(r, k)`: the inner product of unit row `r` with weight row `k`, plus bias `k`. -/
theorem scores_apply (r : Fin 128) (k : Fin 64) :
    scores v0 v2 v3 (ix2 r k)
      = Spec.score (fun d => v0 (ix3 (0 : Fin 1) r d)) (fun k d => v2 (ix2 k d)) (fun k => v3 (ix2 (0 : Fin 1) k)) k := by
  have hl : ∀ d : Fin 128, dot_S128x128_S64x128_S128x64_1_1_0_0_n_n.lhsIdx (ix2 r k)
      ((contrEquiv1 dot_S128x128_S64x128_S128x64_1_1_0_0_n_n 128 rfl rfl).symm d) = ix2 r d := fun d => funext fun a => Fin.ext (by
    have hk := contrEquiv1_symm_val dot_S128x128_S64x128_S128x64_1_1_0_0_n_n 128 rfl rfl d
    match a with
    | ⟨0, _⟩ => exact dot_lhs_row _ _
    | ⟨1, _⟩ => exact (dot_S128x128_S64x128_S128x64_1_1_0_0_n_n.lhsIdx_val_of_single rfl (ix2 r k) _).trans hk)
  have hw : ∀ d : Fin 128, dot_S128x128_S64x128_S128x64_1_1_0_0_n_n.rhsIdx (ix2 r k)
      ((contrEquiv1 dot_S128x128_S64x128_S128x64_1_1_0_0_n_n 128 rfl rfl).symm d) = ix2 k d := fun d => funext fun a => Fin.ext (by
    have hk := contrEquiv1_symm_val dot_S128x128_S64x128_S128x64_1_1_0_0_n_n 128 rfl rfl d
    match a with
    | ⟨0, _⟩ => exact dot_rhs_row _ _
    | ⟨1, _⟩ => exact (dot_S128x128_S64x128_S128x64_1_1_0_0_n_n.rhsIdx_val_of_single rfl (ix2 r k) _).trans hk)
  have hm := matmul_zero_eq_sum dot_S128x128_S64x128_S128x64_1_1_0_0_n_n none 128 rfl rfl
    (truncf .bf16 (unitTile v0) bitsLt_bf16_f32) (truncf .bf16 v2 bitsLt_bf16_f32) (ix2 r k) (fun d => ix2 r d) (fun d => ix2 k d) hl hw
  have hb : broadcastTo S128x64 (shapeCast S1x64 v3 shapeCasts_S1x64_S1x64) broadcasts_S1x64_S128x64 (ix2 r k) = v3 (ix2 (0 : Fin 1) k) := by
    rw [shapeCast_self]
    exact broadcastTo_1b_ab_apply v3 _ r k
  show _ + _ = _
  rw [hm, hb]
  unfold Spec.score
  exact congrArg (· + _) (Finset.sum_congr rfl fun d _ => congrArg (· * _) (unitTile_apply v0 r d))

/-- The softmax weights at `(r, k)`. -/
theorem weights_apply (r : Fin 128) (k : Fin 64) :
    weights v0 v2 v3 (ix2 r k)
      = Spec.soft (Spec.score (fun d => v0 (ix3 (0 : Fin 1) r d)) (fun k d => v2 (ix2 k d)) (fun k => v3 (ix2 (0 : Fin 1) k))) k := by
  refine (softmax_rows_apply (scores v0 v2 v3) reduces_S128x64_S128 (.inl rfl) rfl rfl shapeCasts_S128_S128x1 broadcasts_S128x1_S128x64 r k).trans ?_
  unfold Spec.soft
  simp only [scores_apply]

/-- The first payload at `(r, k, d)`: the weighted residual of unit row `r` against centroid `k`. -/
theorem pay2_apply (r : Fin 128) (k : Fin 64) (d : Fin 128) :
    k0_pay2 v0 v2 v3 v5 (ix3 r k d)
      = Spec.resid (fun d => v0 (ix3 (0 : Fin 1) r d)) (fun k d => v2 (ix2 k d)) (fun k => v3 (ix2 (0 : Fin 1) k))
          (fun k d => v5 (ix3 (0 : Fin 1) k d)) k d := by
  rw [pay2_eq]
  show (_ - _) * _ = _
  rw [broadcastTo_a1c_abc_apply _ _ r k d, shapeCast_ab_a1b_apply _ _ r 0 d, unitTile_apply,
    broadcastTo_1bc_abc_apply _ _ r k d, shapeCast_ab_1ab_apply _ _ 0 k d, shapeCast_1ab_ab_apply _ _ k d,
    broadcastTo_ab1_abc_apply _ _ r k d, shapeCast_ab_ab1_apply _ _ r k 0, weights_apply]
  rfl

/-- The second payload at `(r, k, 0)`: the Euclidean norm of that residual row. -/
theorem pay3_apply (r : Fin 128) (k : Fin 64) (u : Fin 1) :
    k0_pay3 v0 v2 v3 v5 (ix3 r k u)
      = Ideal.sqrt (∑ d : Fin 128,
          Spec.resid (fun d => v0 (ix3 (0 : Fin 1) r d)) (fun k d => v2 (ix2 k d)) (fun k => v3 (ix2 (0 : Fin 1) k))
            (fun k d => v5 (ix3 (0 : Fin 1) k d)) k d
          * Spec.resid (fun d => v0 (ix3 (0 : Fin 1) r d)) (fun k d => v2 (ix2 k d)) (fun k => v3 (ix2 (0 : Fin 1) k))
            (fun k d => v5 (ix3 (0 : Fin 1) k d)) k d) := by
  unfold k0_pay3
  show Ideal.sqrt _ = _
  rw [shapeCast_ab_ab1_apply _ _ r k u, lastSum3_f32_apply _ _ _ _ r k]
  exact congrArg Ideal.sqrt (Finset.sum_congr rfl fun d _ => by
    show _ * _ = _
    rw [pay2_apply])

/-! ## The last payload: flatten, then scale each row to unit length -/

/-- The residual rows each over the larger of its norm and the floor, laid out one after another. -/
def flatTile (v36 : FVec Ideal S128x64x128 .f32) (v40 : FVec Ideal S128x64x1 .f32) (e : Ideal .f32) : FVec Ideal S128x8192 .f32 :=
  shapeCast S128x8192 (divf v36 (broadcastTo S128x64x128 (maximumf v40 (broadcast S128x64x1 e)) broadcasts_S128x64x1_S128x64x128))
    shapeCasts_S128x64x128_S128x8192

/-- The last payload scales the rows of the flattened tile to unit length. -/
theorem pay1_eq (v36 : FVec Ideal S128x64x128 .f32) (v40 : FVec Ideal S128x64x1 .f32) (e : Ideal .f32) :
    k0_pay1 v36 v40 e
      = shapeCast S1x128x8192 (divf (flatTile v36 v40 e) (broadcastTo S128x8192 (maximumf (sqrt (shapeCast S128x1
          (multiReduction .add [1] S128 (mulf (flatTile v36 v40 e) (flatTile v36 v40 e)) 0x00000000#32 reduces_S128x8192_S128 (.inl rfl) rfl)
          shapeCasts_S128_S128x1)) (broadcast S128x1 (Scalar.ofBits .f32 0x2B8CBCCC#32))) broadcasts_S128x1_S128x8192))
        shapeCasts_S128x8192_S1x128x8192 := rfl

/-- The last payload at `(0, r, j)`, for any residual array and column of norms whose quotient at row `r` is `q`:
    position `j` of the flattened row `(k, d) ↦ q k d`, scaled to unit length. -/
theorem pay1_apply (v36 : FVec Ideal S128x64x128 .f32) (v40 : FVec Ideal S128x64x1 .f32) (r : Fin 128) (j : Fin 8192) (u : Fin 1)
    (q : Fin 64 → Fin 128 → EReal)
    (hq : ∀ (k : Fin 64) (d : Fin 128), Ideal.div (v36 (ix3 r k d)) (max (v40 (ix3 r k (0 : Fin 1))) Spec.floor) = q k d) :
    k0_pay1 v36 v40 (Scalar.ofBits .f32 0x2B8CBCCC#32) (ix3 u r j)
      = Spec.normed (fun j' : Fin 8192 => q ⟨j'.val / 128, by have := j'.isLt; omega⟩ ⟨j'.val % 128, Nat.mod_lt _ (by decide)⟩) j := by
  have hflat : ∀ j' : Fin 8192, flatTile v36 v40 (Scalar.ofBits .f32 0x2B8CBCCC#32) (ix2 r j')
      = q ⟨j'.val / 128, by have := j'.isLt; omega⟩ ⟨j'.val % 128, Nat.mod_lt _ (by decide)⟩ := by
    intro j'
    unfold flatTile
    rw [shapeCast_abc_an_apply _ _ (by decide) r j' ⟨j'.val / 128, by have := j'.isLt; omega⟩ ⟨j'.val % 128, Nat.mod_lt _ (by decide)⟩
      (by show j'.val = j'.val / 128 * 128 + j'.val % 128; omega)]
    show Ideal.div _ _ = _
    rw [broadcastTo_ab1_abc_apply _ _ r _ _]
    exact hq _ _
  rw [pay1_eq, shapeCast_ab_1ab_apply _ _ u r j]
  refine (unitRows_apply _ reduces_S128x8192_S128 (.inl rfl) rfl shapeCasts_S128_S128x1 broadcasts_S128x1_S128x8192
    (Scalar.ofBits .f32 0x2B8CBCCC#32) r j).trans ?_
  unfold Spec.normed
  simp only [hflat]
  rfl

/-- WHAT THE BODY STORES at `(0, r, j)`: the row result of the specification, of row `r` of the loaded tile, the
    weight rows, the biases and the centroid rows as loaded. -/
theorem stored_apply (r : Fin 128) (j : Fin 8192) (u : Fin 1) :
    k0_pay1 (k0_pay2 v0 v2 v3 v5) (k0_pay3 v0 v2 v3 v5) (Scalar.ofBits .f32 0x2B8CBCCC#32) (ix3 u r j)
      = Spec.out (fun d => v0 (ix3 (0 : Fin 1) r d)) (fun k d => v2 (ix2 k d)) (fun k => v3 (ix2 (0 : Fin 1) k))
          (fun k d => v5 (ix3 (0 : Fin 1) k d)) j := by
  refine (pay1_apply _ _ r j u (fun k d => Spec.normed (Spec.resid (fun d => v0 (ix3 (0 : Fin 1) r d)) (fun k d => v2 (ix2 k d))
    (fun k => v3 (ix2 (0 : Fin 1) k)) (fun k d => v5 (ix3 (0 : Fin 1) k d)) k) d) (fun k d => ?_)).trans rfl
  rw [pay2_apply, pay3_apply]
  rfl

end Cert.KernelIdeal.Body

end
-- ==== Proof.KernelValue.lean ====
/-
  The kernel's result array as one function of its argument arrays.

  Grid point `(n, ci)` loads rows `128·ci … 128·ci + 127` of sample `n`'s descriptors, all the weight rows and biases and
  sample `n`'s centroid rows, and writes rows `128·ci … 128·ci + 127` of sample `n`'s result; row `r` of what it writes is
  the specification's row result of row `r` of what it loaded. The `64` blocks written tile the result array, so the
  array ends holding, at `(n, c, j)`, the row result of descriptor row `(n, c)` at position `j`.
-/
import proofs.«105806_j19292993093865_1_alg».proof.Proof.Gen.KernelIdeal.Value
import proofs.«105806_j19292993093865_1_alg».proof.Proof.KernelRow
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The result array as a function of the four arrays the region reads: at `(n, c, j)` the row result of descriptor
    row `(n, c)`, the weight rows, the biases and sample `n`'s centroid rows, at position `j`. -/
def G (x : S8x1024x128.Idx → Elt Ideal .f32) (w : S64x128.Idx → Elt Ideal .f32) (b : S1x64.Idx → Elt Ideal .f32)
    (ce : S8x64x128.Idx → Elt Ideal .f32) : S8x1024x8192.Idx → Elt Ideal .f32 :=
  fun i => Spec.out (fun d => x (ix3 (i 0) (i 1) d)) (fun k d => w (ix2 k d)) (fun k => b (ix2 (0 : Fin 1) k))
    (fun k d => ce (ix3 (i 0) k d)) (i 2)

/-- The printed index maps over the grid: the descriptor block moves with the result block, the weight and bias
    blocks stay put, the centroid block follows the result block's sample; the result's block indices fill `8 × 8`. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = win0_4.index t (0 : Fin 3) ∧ win0_3.index t (1 : Fin 3) = 0 ∧ win0_3.index t (2 : Fin 3) = 0
    ∧ win0_4.index t (0 : Fin 3) < 8 ∧ win0_4.index t (1 : Fin 3) < 8 ∧ win0_4.index t (2 : Fin 3) = 0 :=
  (by decide +kernel : ∀ t : Fin grid0.N, _)

/-- Every block of the result array is some point's. -/
theorem idx_onto : ∀ (q0 : Fin 8) (q1 : Fin 8), ∃ t : Fin cfg0.N, win0_4.index t = ![q0.val, q1.val, 0] :=
  (by decide +kernel : ∀ (q0 : Fin 8) (q1 : Fin 8), ∃ t : Fin grid0.N, win0_4.index t = ![q0.val, q1.val, 0])

/-! ## The blocks a point loads, read off the arrays -/

/-- Row `r` of the descriptor block is row `128·ci + r` of sample `n`. -/
theorem blk_x (c : Dev nD) (t : Fin cfg0.N) (N : Fin 8) (C : Fin 1024) (r d : Fin 128)
    (hN : N.val = win0_4.index t (0 : Fin 3)) (hC : C.val = win0_4.index t (1 : Fin 3) * 128 + r.val) :
    iblk m c 0 t (ix3 (0 : Fin 1) r d) = V m c main_arg0 (ix3 N C d) := by
  obtain ⟨e0, e1, e2, -⟩ := idx_facts t
  show V m c main_arg0 (((cfg0.win 0).blk t).view.emb (ix3 (0 : Fin 1) r d)) = V m c main_arg0 (ix3 N C d)
  refine congrArg (V m c main_arg0 : S8x1024x128.Idx → Elt Ideal .f32) (funext fun a => Fin.ext ?_)
  match a with
  | ⟨0, _⟩ => show win0_0.index t (0 : Fin 3) * 1 + 1 * 0 = N.val; omega
  | ⟨1, _⟩ => show win0_0.index t (1 : Fin 3) * 128 + 1 * r.val = C.val; omega
  | ⟨2, _⟩ => show win0_0.index t (2 : Fin 3) * 128 + 1 * d.val = d.val; omega

/-- The weight block is the weight array. -/
theorem blk_w (c : Dev nD) (t : Fin cfg0.N) (k : Fin 64) (d : Fin 128) :
    iblk m c 1 t (ix2 k d) = V m c main_arg2 (ix2 k d) := by
  obtain ⟨-, -, -, e3, e4, -⟩ := idx_facts t
  show V m c main_arg2 (((cfg0.win 1).blk t).view.emb (ix2 k d)) = V m c main_arg2 (ix2 k d)
  refine congrArg (V m c main_arg2 : S64x128.Idx → Elt Ideal .f32) (funext fun a => Fin.ext ?_)
  match a with
  | ⟨0, _⟩ => show win0_1.index t (0 : Fin 2) * 64 + 1 * k.val = k.val; omega
  | ⟨1, _⟩ => show win0_1.index t (1 : Fin 2) * 128 + 1 * d.val = d.val; omega

/-- The bias block is the bias row. -/
theorem blk_b (c : Dev nD) (t : Fin cfg0.N) (k : Fin 64) :
    iblk m c 2 t (ix2 (0 : Fin 1) k) = V m c main_v7 (ix2 (0 : Fin 1) k) := by
  obtain ⟨-, -, -, -, -, e5, e6, -⟩ := idx_facts t
  show V m c main_v7 (((cfg0.win 2).blk t).view.emb (ix2 (0 : Fin 1) k)) = V m c main_v7 (ix2 (0 : Fin 1) k)
  refine congrArg (V m c main_v7 : S1x64.Idx → Elt Ideal .f32) (funext fun a => Fin.ext ?_)
  match a with
  | ⟨0, _⟩ => show win0_2.index t (0 : Fin 2) * 1 + 1 * 0 = 0; omega
  | ⟨1, _⟩ => show win0_2.index t (1 : Fin 2) * 64 + 1 * k.val = k.val; omega

/-- The centroid block is sample `n`'s centroid rows. -/
theorem blk_ce (c : Dev nD) (t : Fin cfg0.N) (N : Fin 8) (k : Fin 64) (d : Fin 128)
    (hN : N.val = win0_4.index t (0 : Fin 3)) :
    iblk m c 3 t (ix3 (0 : Fin 1) k d) = V m c main_v6 (ix3 N k d) := by
  obtain ⟨-, -, -, -, -, -, -, e7, e8, e9, -⟩ := idx_facts t
  show V m c main_v6 (((cfg0.win 3).blk t).view.emb (ix3 (0 : Fin 1) k d)) = V m c main_v6 (ix3 N k d)
  refine congrArg (V m c main_v6 : S8x64x128.Idx → Elt Ideal .f32) (funext fun a => Fin.ext ?_)
  match a with
  | ⟨0, _⟩ => show win0_3.index t (0 : Fin 3) * 1 + 1 * 0 = N.val; omega
  | ⟨1, _⟩ => show win0_3.index t (1 : Fin 3) * 64 + 1 * k.val = k.val; omega
  | ⟨2, _⟩ => show win0_3.index t (2 : Fin 3) * 128 + 1 * d.val = d.val; omega

/-! ## From blocks to the array -/

/-- WHAT POINT `t` WRITES BACK is block `t` of `G` of the arrays as the region finds them. -/
theorem flushed_eq (c : Dev nD) (t : Fin cfg0.N) :
    (dats m 0 c).flushed 4 t
      = ((cfg0.win 4).blk t).view.read (Elt Ideal) (G (V m c main_arg0) (V m c main_arg2) (V m c main_v7) (V m c main_v6)) := by
  rw [flushed4]
  unfold out0_4
  rw [View.canon_unit_zero hz3]
  simp only [View.ld_unit_zero (S := S1x128x128) hz3, View.ld_unit_zero (S := S64x128) hz2, View.ld_unit_zero (S := S1x64) hz2,
    View.ld_unit_zero (S := S1x64x128) hz3]
  obtain ⟨-, -, -, -, -, -, -, -, -, -, b0, b1, b2⟩ := idx_facts t
  funext y
  obtain ⟨u, r, j, rfl⟩ : ∃ (u : Fin 1) (r : Fin 128) (j : Fin 8192), y = ix3 u r j :=
    ⟨y 0, y 1, y 2, eq_ix3 (n0 := 1) (n1 := 128) (n2 := 8192) y⟩
  have hu : u.val = 0 := by omega
  have hr := r.isLt
  have hemb : ((cfg0.win 4).blk t).view.emb (ix3 u r j)
      = ix3 (⟨win0_4.index t (0 : Fin 3), b0⟩ : Fin 8) (⟨win0_4.index t (1 : Fin 3) * 128 + r.val, by omega⟩ : Fin 1024) j := by
    funext a; apply Fin.ext
    match a with
    | ⟨0, _⟩ => show win0_4.index t (0 : Fin 3) * 1 + 1 * u.val = win0_4.index t (0 : Fin 3); omega
    | ⟨1, _⟩ => show win0_4.index t (1 : Fin 3) * 128 + 1 * r.val = win0_4.index t (1 : Fin 3) * 128 + r.val; omega
    | ⟨2, _⟩ => show win0_4.index t (2 : Fin 3) * 8192 + 1 * j.val = j.val; omega
  show k0_pay1 (k0_pay2 (iblk m c 0 t) (iblk m c 1 t) (iblk m c 2 t) (iblk m c 3 t))
        (k0_pay3 (iblk m c 0 t) (iblk m c 1 t) (iblk m c 2 t) (iblk m c 3 t)) (Scalar.ofBits .f32 0x2B8CBCCC#32) (ix3 u r j)
      = G (V m c main_arg0) (V m c main_arg2) (V m c main_v7) (V m c main_v6) (((cfg0.win 4).blk t).view.emb (ix3 u r j))
  rw [hemb]
  refine (Body.stored_apply (iblk m c 0 t) (iblk m c 1 t) (iblk m c 2 t) (iblk m c 3 t) r j u).trans ?_
  exact Spec.out_congr (funext fun d => blk_x m c t _ _ r d rfl rfl) (funext fun k => funext fun d => blk_w m c t k d)
    (funext fun k => blk_b m c t k) (funext fun k => funext fun d => blk_ce m c t _ k d rfl) j

/-- An index of the array is in point `t`'s block iff each coordinate is in the block's range on its axis. -/
theorem mem_blk (t : Fin cfg0.N) (i : S8x1024x8192.Idx) :
    i ∈ ((cfg0.win 4).blk t).view.set ↔ ∀ a : Fin 3, win0_4.index t a * S1x128x8192.size a ≤ (i a).val
      ∧ (i a).val < win0_4.index t a * S1x128x8192.size a + S1x128x8192.size a := by
  show i ∈ ((View.whole main_v8).slice (win0_4.rect t)).set ↔ _
  rw [View.set_slice_whole, Rect.mem_set_unit]
  exact Iff.rfl

/-- The blocks written cover the result array: row `c` of sample `n` is in the block of point `(n, c / 128)`. -/
theorem cover (i : S8x1024x8192.Idx) :
    ∃ t : Fin cfg0.N, (cfg0.win 4).flush t = true ∧ i ∈ ((cfg0.win 4).blk t).view.set := by
  have h0 : (i 0).val < 8 := (i 0).isLt
  have h1 : (i 1).val < 1024 := (i 1).isLt
  have h2 : (i 2).val < 8192 := (i 2).isLt
  obtain ⟨t, ht⟩ := idx_onto ⟨(i 0).val, h0⟩ ⟨(i 1).val / 128, by omega⟩
  have q0 : win0_4.index t (0 : Fin 3) = (i 0).val := congrFun ht 0
  have q1 : win0_4.index t (1 : Fin 3) = (i 1).val / 128 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 8192 ≤ (i 2).val ∧ (i 2).val < win0_4.index t (2 : Fin 3) * 8192 + 8192; omega

/-- THE ARRAY after the run is `G` of the arrays as the region finds them. -/
theorem final (c : Dev nD) :
    (dats m 0 c).arrAt 4 cfg0.N = G (V m c main_arg0) (V m c main_arg2) (V m c main_v7) (V m c main_v6) :=
  (dats m 0 c).arrAt_eq_of_cover 4 (G (V m c main_arg0) (V m c main_arg2) (V m c main_v7) (V m c main_v6))
    (fun t _ => flushed_eq m c t) cover

/-! ## The two arrays the host prepares before the region -/

/-- The centroid rows: the cluster rows the index vector names, an index below zero counted from the end. -/
def cent (x1 : (⟨S8x256x128, .f32⟩ : BufTy).Contents (Elt Ideal)) (x4 : (⟨S64, .i32⟩ : BufTy).Contents (Elt Ideal)) :
    (⟨S8x64x128, .f32⟩ : BufTy).Contents (Elt Ideal) :=
  Host.gather gather_S8x256x128_S64x1_S8x64x128_02_1_n_n_1_1_81128 x1
    (broadcastInDim S64x1 ![0] bcast_S64_S64x1_0
      (select (cmpi .slt x4 (broadcastInDim S64 ![] bcast_S_S64 (constantI S_ 32 0#32)))
        (addi x4 (broadcastInDim S64 ![] bcast_S_S64 (constantI S_ 32 256#32))) x4))

/-- The region finds the biases as one row. -/
theorem V_bias (c : Dev nD) :
    (V m c main_v7 : S1x64.Idx → Elt Ideal .f32) = shapeCast S1x64 (m ((c : Thread nD τ).loc main_arg3)) shapeCasts_S64_S1x64 := by
  dsimp only [Gen.V, Gen.hostOps0]; after_results; rfl

/-- The region finds the gathered centroid rows. -/
theorem V_cent (c : Dev nD) :
    (V m c main_v6 : S8x64x128.Idx → Elt Ideal .f32)
      = cent (m ((c : Thread nD τ).loc main_arg1)) (m ((c : Thread nD τ).loc main_arg4)) := by
  dsimp only [Gen.V, Gen.hostOps0]; after_results; rfl

/-- The result array as a function of @main's five arguments. -/
def result (x0 : (⟨S8x1024x128, .f32⟩ : BufTy).Contents (Elt Ideal)) (x1 : (⟨S8x256x128, .f32⟩ : BufTy).Contents (Elt Ideal))
    (x2 : (⟨S64x128, .f32⟩ : BufTy).Contents (Elt Ideal)) (x3 : (⟨S64, .f32⟩ : BufTy).Contents (Elt Ideal))
    (x4 : (⟨S64, .i32⟩ : BufTy).Contents (Elt Ideal)) : (⟨S8x1024x8192, .f32⟩ : BufTy).Contents (Elt Ideal) :=
  G x0 x2 (shapeCast S1x64 x3 shapeCasts_S64_S1x64) (cent x1 x4)

/-- THE RUN: every weakly fair execution ends with the result array at `result` of the arguments, the arguments unchanged. -/
theorem run : θ_run defs (onTc (τ := τ) (main (F := Ideal))) ⟨m, fun _ => 0, ρ⟩ fun r => ∀ c : Dev nD,
      r.2.mem ((c : Thread nD τ).loc main_v8)
        = result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (by
      rw [V_main_arg0 m c, V_main_arg2 m c, V_bias m c, V_cent m c]; rfl)), (h c).2⟩)
    (run_blocks m ρ)

end Cert.KernelIdeal.Whole

end
-- ==== Proof.Bridge.lean ====
/-
  The reference's result is the kernel's result function of the same five arrays.

  Index by index both are the specification's row result: of the same descriptor row, the same weight rows, the same
  biases (the kernel reads them off a one-row array, the reference off the vector) and the same gathered centroid rows.
-/
import proofs.«105806_j19292993093865_1_alg».proof.Proof.RefRow
import proofs.«105806_j19292993093865_1_alg».proof.Proof.KernelValue
import Idealize.ShloMosaic.Lib.ValueLayout

noncomputable section

namespace Cert.Bridge

open Idealize.ShloMosaic Idealize.ShloMosaic.ValueIdx

theorem ref_eq_result (x0 : (⟨Cert.ReferenceIdeal.S8x1024x128, .f32⟩ : BufTy).Contents (Elt Ideal))
    (x1 : (⟨Cert.ReferenceIdeal.S8x256x128, .f32⟩ : BufTy).Contents (Elt Ideal))
    (x2 : (⟨Cert.ReferenceIdeal.S64x128, .f32⟩ : BufTy).Contents (Elt Ideal))
    (x3 : (⟨Cert.ReferenceIdeal.S64, .f32⟩ : BufTy).Contents (Elt Ideal))
    (x4 : (⟨Cert.ReferenceIdeal.S64, .i32⟩ : BufTy).Contents (Elt Ideal)) :
    Cert.ReferenceIdeal.Read.val_main_v56 (F := Ideal) x0 x1 x2 x3 x4 = Cert.KernelIdeal.Whole.result x0 x1 x2 x3 x4 := by
  funext i
  obtain ⟨n, c, j, rfl⟩ : ∃ (n : Fin 8) (c : Fin 1024) (j : Fin 8192), i = ix3 n c j :=
    ⟨i 0, i 1, i 2, eq_ix3 (n0 := 8) (n1 := 1024) (n2 := 8192) i⟩
  rw [Cert.ReferenceIdeal.RefValue.out_at]
  show _ = Spec.out (fun d => x0 (ix3 n c d)) (fun k d => x2 (ix2 k d))
    (fun k => shapeCast Cert.KernelIdeal.S1x64 x3 Cert.KernelIdeal.Gen.shapeCasts_S64_S1x64 (ix2 (0 : Fin 1) k))
    (fun k d => Cert.KernelIdeal.Whole.cent x1 x4 (ix3 n k d)) j
  exact Spec.out_congr rfl rfl (funext fun k => (shapeCast_a_1a_apply x3 _ 0 k).symm) rfl j

end Cert.Bridge

end
-- ==== Proof.lean ====
/-
  The certificate of a soft-assignment residual kernel against its array-level reference, on the extended reals.

  Both programs compute, for every descriptor row, the same row result (Proof/Spec.lean): the row at unit length,
  its softmax weights against `64` weight rows, the `64` weighted residuals against the sample's centroid rows each at
  unit length, and their concatenation at unit length. The kernel does this tile by tile over an `8 × 8` grid of
  `128`-row blocks that tile the result (Proof/KernelRow.lean for a block's rows, Proof/KernelValue.lean from blocks to
  the array); the reference does it on whole arrays in another layout (Proof/RefRow.lean). The two differ only in the
  order of the factors of a product, the order of finite sums and maxima, and one extra maximum against minus infinity,
  so the results agree at every extended-real input; the precondition is not used.
-/
import proofs.«105806_j19292993093865_1_alg».proof.Defs
import proofs.«105806_j19292993093865_1_alg».proof.Proof.Gen.Kernel
import proofs.«105806_j19292993093865_1_alg».proof.Proof.Gen.Kernel.Skeleton
import proofs.«105806_j19292993093865_1_alg».proof.Proof.Gen.Kernel.Launch
import proofs.«105806_j19292993093865_1_alg».proof.Proof.Gen.Kernel.Points
import proofs.«105806_j19292993093865_1_alg».proof.Proof.Gen.Kernel.Frame
import proofs.«105806_j19292993093865_1_alg».proof.Proof.Gen.KernelIdeal
import proofs.«105806_j19292993093865_1_alg».proof.Proof.Gen.KernelIdeal.Skeleton
import proofs.«105806_j19292993093865_1_alg».proof.Proof.Gen.KernelIdeal.Launch
import proofs.«105806_j19292993093865_1_alg».proof.Proof.Gen.KernelIdeal.Points
import proofs.«105806_j19292993093865_1_alg».proof.Proof.Gen.KernelIdeal.Frame
import proofs.«105806_j19292993093865_1_alg».proof.Proof.Gen.ReferenceIdeal
import proofs.«105806_j19292993093865_1_alg».proof.Proof.Gen.KernelIdeal.Value
import proofs.«105806_j19292993093865_1_alg».proof.Proof.Gen.ReferenceIdeal.Run
import proofs.«105806_j19292993093865_1_alg».proof.Proof.Gen.ReferenceIdeal.Read
import proofs.«105806_j19292993093865_1_alg».proof.Proof.Gen.Pre_finite_inputs
import proofs.«105806_j19292993093865_1_alg».proof.Proof.Bridge
import Idealize.ShloMosaic.Adequacy
import Idealize.ShloMosaic.Init

noncomputable section

namespace Cert.Proof

open Idealize.ShloMosaic Idealize.SL.Sem Cert.Kernel

/-- Each program terminates, faults nowhere and leaves its arguments as they were: the two kernels' by their generated
    frames, the reference's by its generated run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result array at the kernel's result function
    of the arguments: the kernel by its run, the reference because its result stage is that function. -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, (hagree c).1, (hagree c).2.1, (hagree c).2.2.1, (hagree c).2.2.2.1,
    (hagree c).2.2.2.2]
  exact Cert.Bridge.ref_eq_result _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
